-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x24x2 : Shape := ⟨3, ![64, 24, 2]⟩
abbrev S295x64 : Shape := ⟨2, ![295, 64]⟩
abbrev S_ : Shape := ⟨0, ![]⟩

class Facts : Prop where
  bcast_S_S295x64 : S_.BroadcastsInDim S295x64 (![] : Fin 0 → Fin S295x64.rank)
  reducesTo_S295x64_S_d0_1 : S295x64.ReducesTo [0, 1] S_
  h_S_ : 0 < S_.numel

variable [Facts]

def fn {F : FTy → Type} [FloatOps F] (main_arg0 : IVec S64x24x2 32) (main_arg1 : FVec F S295x64 .f32) : IVec S_ 1 :=
  let main_v0 : FVec F S295x64 .f32 := Host.absf main_arg1
  let main_cst : FVec F S_ .f32 := constant S_ .f32 0x7F800000#32
  let main_v1 : FVec F S295x64 .f32 := broadcastInDim S295x64 ![] bcast_S_S295x64 main_cst
  let main_v2 : IVec S295x64 1 := cmpf .olt main_v0 main_v1
  let main_c : IVec S_ 1 := constantI S_ 1 1#1
  let main_v3 : IVec S_ 1 := (fun x v => Host.reduce IntOp.andi x v reducesTo_S295x64_S_d0_1 h_S_) main_v2 main_c
  main_v3
-- ==== Kernel.lean ====
abbrev S64x24x2 : Shape := ⟨3, ![64, 24, 2]⟩
abbrev S295x64 : Shape := ⟨2, ![295, 64]⟩
abbrev S64x24x1 : Shape := ⟨3, ![64, 24, 1]⟩
abbrev S64x24 : Shape := ⟨2, ![64, 24]⟩
abbrev S_ : Shape := ⟨0, ![]⟩
abbrev S64x24x64 : Shape := ⟨3, ![64, 24, 64]⟩
abbrev S64x64x24 : Shape := ⟨3, ![64, 64, 24]⟩
abbrev S64x1x1536 : Shape := ⟨3, ![64, 1, 1536]⟩
abbrev S64x1024x1536 : Shape := ⟨3, ![64, 1024, 1536]⟩
abbrev S1x1x1536 : Shape := ⟨3, ![1, 1, 1536]⟩
abbrev S1x1024x1536 : Shape := ⟨3, ![1, 1024, 1536]⟩
abbrev S64x1024x64x24 : Shape := ⟨4, ![64, 1024, 64, 24]⟩

abbrev nBuf : Space → Nat
  | .hbm => 76
  | .vmem => 4
  | .smem => 0
  | _ => 0

abbrev bufTy : (tb : Table) → Fin (tcTables nBuf tb) → BufTy
  | .hbm, ⟨0, _⟩ => ⟨S64x24x2, .i32⟩
  | .hbm, ⟨1, _⟩ => ⟨S295x64, .f32⟩
  | .hbm, ⟨2, _⟩ => ⟨S64x24x1, .i32⟩
  | .hbm, ⟨3, _⟩ => ⟨S64x24, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S64x24, .i32⟩
  | .hbm, ⟨11, _⟩ => ⟨S64x24, .i32⟩
  | .hbm, ⟨12, _⟩ => ⟨S_, .i32⟩
  | .hbm, ⟨13, _⟩ => ⟨S64x24, .i32⟩
  | .hbm, ⟨14, _⟩ => ⟨S64x24, .i1⟩
  | .hbm, ⟨15, _⟩ => ⟨S_, .i32⟩
  | .hbm, ⟨16, _⟩ => ⟨S64x24, .i32⟩
  | .hbm, ⟨17, _⟩ => ⟨S64x24, .i1⟩
  | .hbm, ⟨18, _⟩ => ⟨S_, .i32⟩
  | .hbm, ⟨19, _⟩ => ⟨S_, .i1⟩
  | .hbm, ⟨20, _⟩ => ⟨S64x24, .i1⟩
  | .hbm, ⟨21, _⟩ => ⟨S64x24, .i1⟩
  | .hbm, ⟨22, _⟩ => ⟨S64x24, .i1⟩
  | .hbm, ⟨23, _⟩ => ⟨S64x24, .i32⟩
  | .hbm, ⟨24, _⟩ => ⟨S64x24, .i32⟩
  | .hbm, ⟨25, _⟩ => ⟨S64x24, .i32⟩
  | .hbm, ⟨26, _⟩ => ⟨S64x24x1, .i32⟩
  | .hbm, ⟨27, _⟩ => ⟨S64x24, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S64x24, .i32⟩
  | .hbm, ⟨35, _⟩ => ⟨S64x24, .i32⟩
  | .hbm, ⟨36, _⟩ => ⟨S_, .i32⟩
  | .hbm, ⟨37, _⟩ => ⟨S64x24, .i32⟩
  | .hbm, ⟨38, _⟩ => ⟨S64x24, .i1⟩
  | .hbm, ⟨39, _⟩ => ⟨S_, .i32⟩
  | .hbm, ⟨40, _⟩ => ⟨S64x24, .i32⟩
  | .hbm, ⟨41, _⟩ => ⟨S64x24, .i1⟩
  | .hbm, ⟨42, _⟩ => ⟨S_, .i32⟩
  | .hbm, ⟨43, _⟩ => ⟨S_, .i1⟩
  | .hbm, ⟨44, _⟩ => ⟨S64x24, .i1⟩
  | .hbm, ⟨45, _⟩ => ⟨S64x24, .i1⟩
  | .hbm, ⟨46, _⟩ => ⟨S64x24, .i1⟩
  | .hbm, ⟨47, _⟩ => ⟨S64x24, .i32⟩
  | .hbm, ⟨48, _⟩ => ⟨S64x24, .i32⟩
  | .hbm, ⟨49, _⟩ => ⟨S64x24, .i32⟩
  | .hbm, ⟨50, _⟩ => ⟨S_, .i32⟩
  | .hbm, ⟨51, _⟩ => ⟨S64x24, .i32⟩
  | .hbm, ⟨52, _⟩ => ⟨S64x24, .i1⟩
  | .hbm, ⟨53, _⟩ => ⟨S_, .i32⟩
  | .hbm, ⟨54, _⟩ => ⟨S64x24, .i32⟩
  | .hbm, ⟨55, _⟩ => ⟨S64x24, .i32⟩
  | .hbm, ⟨56, _⟩ => ⟨S64x24, .i32⟩
  | .hbm, ⟨57, _⟩ => ⟨S64x24x1, .i32⟩
  | .hbm, ⟨58, _⟩ => ⟨S64x24x64, .f32⟩
  | .hbm, ⟨59, _⟩ => ⟨S_, .i32⟩
  | .hbm, ⟨60, _⟩ => ⟨S64x24, .i32⟩
  | .hbm, ⟨61, _⟩ => ⟨S64x24, .i32⟩
  | .hbm, ⟨62, _⟩ => ⟨S_, .i32⟩
  | .hbm, ⟨63, _⟩ => ⟨S64x24, .i32⟩
  | .hbm, ⟨64, _⟩ => ⟨S64x24, .i1⟩
  | .hbm, ⟨65, _⟩ => ⟨S_, .i32⟩
  | .hbm, ⟨66, _⟩ => ⟨S64x24, .i32⟩
  | .hbm, ⟨67, _⟩ => ⟨S64x24, .i32⟩
  | .hbm, ⟨68, _⟩ => ⟨S64x24, .i32⟩
  | .hbm, ⟨69, _⟩ => ⟨S64x24x1, .i32⟩
  | .hbm, ⟨70, _⟩ => ⟨S64x24x64, .f32⟩
  | .hbm, ⟨71, _⟩ => ⟨S64x24x64, .f32⟩
  | .hbm, ⟨72, _⟩ => ⟨S64x64x24, .f32⟩
  | .hbm, ⟨73, _⟩ => ⟨S64x1x1536, .f32⟩
  | .hbm, ⟨74, _⟩ => ⟨S64x1024x1536, .f32⟩
  | .hbm, ⟨75, _⟩ => ⟨S64x1024x64x24, .f32⟩
  | .local _ .vmem, ⟨0, _⟩ => ⟨S1x1x1536, .f32⟩
  | .local _ .vmem, ⟨1, _⟩ => ⟨S1x1x1536, .f32⟩
  | .local _ .vmem, ⟨2, _⟩ => ⟨S1x1024x1536, .f32⟩
  | .local _ .vmem, ⟨3, _⟩ => ⟨S1x1024x1536, .f32⟩
  | _, _ => ⟨S64x24x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_c_3 : Ref sig .tc := ⟨.hbm, 59, rfl⟩
abbrev main_v13 : Ref sig .tc := ⟨.hbm, 60, rfl⟩
abbrev main_v14 : Ref sig .tc := ⟨.hbm, 61, rfl⟩
abbrev main_c_4 : Ref sig .tc := ⟨.hbm, 62, rfl⟩
abbrev main_v15 : Ref sig .tc := ⟨.hbm, 63, rfl⟩
abbrev main_v16 : Ref sig .tc := ⟨.hbm, 64, rfl⟩
abbrev main_c_5 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S64x24x2_S64x24x1_0_0_0 : S64x24x2.Slices ![0, 0, 0] S64x24x1
  shapeCasts_S64x24x1_S64x24 : S64x24x1.ShapeCasts S64x24
  bcast_S_S64x24 : S_.BroadcastsInDim S64x24 (![] : Fin 0 → Fin S64x24.rank)
  slices_S64x24x2_S64x24x1_0_0_1 : S64x24x2.Slices ![0, 0, 1] S64x24x1
  bcast_S64x24_S64x24x1_0_1 : S64x24.BroadcastsInDim S64x24x1 (![0, 1] : Fin 2 → Fin S64x24x1.rank)
  transposes_S64x24x64_S64x64x24_0_2_1 : S64x24x64.Transposes [0, 2, 1] S64x64x24
  shapeCasts_S64x64x24_S64x1x1536 : S64x64x24.ShapeCasts S64x1x1536
  inb_S1x1x1536_S1x1x1536_0_0_0 : ∀ a, (![0, 0, 0] : Fin 3 → Nat) a + S1x1x1536.size a ≤ S1x1x1536.size a
  h_S1x1x1536 : 0 < S1x1x1536.numel
  shapeCasts_S1x1x1536_S1x1x1536 : S1x1x1536.ShapeCasts S1x1x1536
  broadcasts_S1x1x1536_S1x1024x1536 : S1x1x1536.Broadcasts S1x1024x1536
  inb_S1x1024x1536_S1x1024x1536_0_0_0 : ∀ a, (![0, 0, 0] : Fin 3 → Nat) a + S1x1024x1536.size a ≤ S1x1024x1536.size a
  h_S1x1024x1536 : 0 < S1x1024x1536.numel
  shapeCasts_S64x1024x1536_S64x1024x64x24 : S64x1024x1536.ShapeCasts S64x1024x64x24
  gather_S295x64_S64x24x1_S64x24x64_2_0_n_n_0_2_164_wf : GatherDims.WF S295x64 S64x24x1 S64x24x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1536.size a ≤ S64x1x1536.size a
  hwx0_0 : ∀ i : grid0.Coords, EltTy.bits .f32 = 32 ∨ (Rect.block (s := S64x1x1536) S1x1x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1536.size a ≤ S64x1024x1536.size a
  hwx0_1 : ∀ i : grid0.Coords, EltTy.bits .f32 = 32 ∨ (Rect.block (s := S64x1024x1536) S1x1024x1536.size (cc0_transform_1 i) (hinb0_1 i)).WholeWords (EltTy.packing .f32)

variable [Facts₀]

def gather_S295x64_S64x24x1_S64x24x64_2_0_n_n_0_2_164 : GatherDims S295x64 S64x24x1 S64x24x64 where
  offsetDims := [2]
  collapsedSliceDims := [0]
  operandBatchingDims := []
  startIndicesBatchingDims := []
  startIndexMap := [0]
  indexVectorDim := 2
  sliceSizes := ![1, 64]
  wf := gather_S295x64_S64x24x1_S64x24x64_2_0_n_n_0_2_164_wf

abbrev win0_0 : Pipeline.Window sig grid0 :=
  Pipeline.Window.ofSpec (Memref.whole main_v24) S1x1x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x1024x1536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x24x2 : Shape := ⟨3, ![64, 24, 2]⟩
abbrev S295x64 : Shape := ⟨2, ![295, 64]⟩
abbrev S64x24x1 : Shape := ⟨3, ![64, 24, 1]⟩
abbrev S64x24 : Shape := ⟨2, ![64, 24]⟩
abbrev S_ : Shape := ⟨0, ![]⟩
abbrev S64x24x64 : Shape := ⟨3, ![64, 24, 64]⟩
abbrev S64x64x24 : Shape := ⟨3, ![64, 64, 24]⟩
abbrev S64x1x64x24 : Shape := ⟨4, ![64, 1, 64, 24]⟩
abbrev S64x1024x64x24 : Shape := ⟨4, ![64, 1024, 64, 24]⟩

abbrev nBuf : Space → Nat
  | .hbm => 75
  | .vmem => 0
  | .smem => 0
  | _ => 0

abbrev bufTy : (tb : Table) → Fin (tcTables nBuf tb) → BufTy
  | .hbm, ⟨0, _⟩ => ⟨S64x24x2, .i32⟩
  | .hbm, ⟨1, _⟩ => ⟨S295x64, .f32⟩
  | .hbm, ⟨2, _⟩ => ⟨S64x24x1, .i32⟩
  | .hbm, ⟨3, _⟩ => ⟨S64x24, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S64x24, .i32⟩
  | .hbm, ⟨11, _⟩ => ⟨S64x24, .i32⟩
  | .hbm, ⟨12, _⟩ => ⟨S_, .i32⟩
  | .hbm, ⟨13, _⟩ => ⟨S64x24, .i32⟩
  | .hbm, ⟨14, _⟩ => ⟨S64x24, .i1⟩
  | .hbm, ⟨15, _⟩ => ⟨S_, .i32⟩
  | .hbm, ⟨16, _⟩ => ⟨S64x24, .i32⟩
  | .hbm, ⟨17, _⟩ => ⟨S64x24, .i1⟩
  | .hbm, ⟨18, _⟩ => ⟨S_, .i32⟩
  | .hbm, ⟨19, _⟩ => ⟨S_, .i1⟩
  | .hbm, ⟨20, _⟩ => ⟨S64x24, .i1⟩
  | .hbm, ⟨21, _⟩ => ⟨S64x24, .i1⟩
  | .hbm, ⟨22, _⟩ => ⟨S64x24, .i1⟩
  | .hbm, ⟨23, _⟩ => ⟨S64x24, .i32⟩
  | .hbm, ⟨24, _⟩ => ⟨S64x24, .i32⟩
  | .hbm, ⟨25, _⟩ => ⟨S64x24, .i32⟩
  | .hbm, ⟨26, _⟩ => ⟨S64x24x1, .i32⟩
  | .hbm, ⟨27, _⟩ => ⟨S64x24, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S64x24, .i32⟩
  | .hbm, ⟨35, _⟩ => ⟨S64x24, .i32⟩
  | .hbm, ⟨36, _⟩ => ⟨S_, .i32⟩
  | .hbm, ⟨37, _⟩ => ⟨S64x24, .i32⟩
  | .hbm, ⟨38, _⟩ => ⟨S64x24, .i1⟩
  | .hbm, ⟨39, _⟩ => ⟨S_, .i32⟩
  | .hbm, ⟨40, _⟩ => ⟨S64x24, .i32⟩
  | .hbm, ⟨41, _⟩ => ⟨S64x24, .i1⟩
  | .hbm, ⟨42, _⟩ => ⟨S_, .i32⟩
  | .hbm, ⟨43, _⟩ => ⟨S_, .i1⟩
  | .hbm, ⟨44, _⟩ => ⟨S64x24, .i1⟩
  | .hbm, ⟨45, _⟩ => ⟨S64x24, .i1⟩
  | .hbm, ⟨46, _⟩ => ⟨S64x24, .i1⟩
  | .hbm, ⟨47, _⟩ => ⟨S64x24, .i32⟩
  | .hbm, ⟨48, _⟩ => ⟨S64x24, .i32⟩
  | .hbm, ⟨49, _⟩ => ⟨S64x24, .i32⟩
  | .hbm, ⟨50, _⟩ => ⟨S_, .i32⟩
  | .hbm, ⟨51, _⟩ => ⟨S64x24, .i32⟩
  | .hbm, ⟨52, _⟩ => ⟨S64x24, .i1⟩
  | .hbm, ⟨53, _⟩ => ⟨S_, .i32⟩
  | .hbm, ⟨54, _⟩ => ⟨S64x24, .i32⟩
  | .hbm, ⟨55, _⟩ => ⟨S64x24, .i32⟩
  | .hbm, ⟨56, _⟩ => ⟨S64x24, .i32⟩
  | .hbm, ⟨57, _⟩ => ⟨S64x24x1, .i32⟩
  | .hbm, ⟨58, _⟩ => ⟨S64x24x64, .f32⟩
  | .hbm, ⟨59, _⟩ => ⟨S_, .i32⟩
  | .hbm, ⟨60, _⟩ => ⟨S64x24, .i32⟩
  | .hbm, ⟨61, _⟩ => ⟨S64x24, .i32⟩
  | .hbm, ⟨62, _⟩ => ⟨S_, .i32⟩
  | .hbm, ⟨63, _⟩ => ⟨S64x24, .i32⟩
  | .hbm, ⟨64, _⟩ => ⟨S64x24, .i1⟩
  | .hbm, ⟨65, _⟩ => ⟨S_, .i32⟩
  | .hbm, ⟨66, _⟩ => ⟨S64x24, .i32⟩
  | .hbm, ⟨67, _⟩ => ⟨S64x24, .i32⟩
  | .hbm, ⟨68, _⟩ => ⟨S64x24, .i32⟩
  | .hbm, ⟨69, _⟩ => ⟨S64x24x1, .i32⟩
  | .hbm, ⟨70, _⟩ => ⟨S64x24x64, .f32⟩
  | .hbm, ⟨71, _⟩ => ⟨S64x24x64, .f32⟩
  | .hbm, ⟨72, _⟩ => ⟨S64x64x24, .f32⟩
  | .hbm, ⟨73, _⟩ => ⟨S64x1x64x24, .f32⟩
  | .hbm, ⟨74, _⟩ => ⟨S64x1024x64x24, .f32⟩
  | _, _ => ⟨S64x24x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_c_3 : Ref sig .tc := ⟨.hbm, 59, rfl⟩
abbrev main_v13 : Ref sig .tc := ⟨.hbm, 60, rfl⟩
abbrev main_v14 : Ref sig .tc := ⟨.hbm, 61, rfl⟩
abbrev main_c_4 : Ref sig .tc := ⟨.hbm, 62, rfl⟩
abbrev main_v15 : Ref sig .tc := ⟨.hbm, 63, rfl⟩
abbrev main_v16 : Ref sig .tc := ⟨.hbm, 64, rfl⟩
abbrev main_c_5 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩

abbrev nD : Nat := 1
abbrev τ : Topo := Topo.v7x

variable {F : FTy → Type} [FloatOps F]

class Facts₀ : Prop where
  slices_S64x24x2_S64x24x1_0_0_0 : S64x24x2.Slices ![0, 0, 0] S64x24x1
  shapeCasts_S64x24x1_S64x24 : S64x24x1.ShapeCasts S64x24
  bcast_S_S64x24 : S_.BroadcastsInDim S64x24 (![] : Fin 0 → Fin S64x24.rank)
  slices_S64x24x2_S64x24x1_0_0_1 : S64x24x2.Slices ![0, 0, 1] S64x24x1
  bcast_S64x24_S64x24x1_0_1 : S64x24.BroadcastsInDim S64x24x1 (![0, 1] : Fin 2 → Fin S64x24x1.rank)
  transposes_S64x24x64_S64x64x24_0_2_1 : S64x24x64.Transposes [0, 2, 1] S64x64x24
  bcast_S64x64x24_S64x1x64x24_0_2_3 : S64x64x24.BroadcastsInDim S64x1x64x24 (![0, 2, 3] : Fin 3 → Fin S64x1x64x24.rank)
  bcast_S64x1x64x24_S64x1024x64x24_0_1_2_3 : S64x1x64x24.BroadcastsInDim S64x1024x64x24 (![0, 1, 2, 3] : Fin 4 → Fin S64x1024x64x24.rank)
  gather_S295x64_S64x24x1_S64x24x64_2_0_n_n_0_2_164_wf : GatherDims.WF S295x64 S64x24x1 S64x24x64 [2] [0] [] [0] [] 2 ![1, 64]

variable [Facts₀]

def gather_S295x64_S64x24x1_S64x24x64_2_0_n_n_0_2_164 : GatherDims S295x64 S64x24x1 S64x24x64 where
  offsetDims := [2]
  collapsedSliceDims := [0]
  operandBatchingDims := []
  startIndicesBatchingDims := []
  startIndexMap := [0]
  indexVectorDim := 2
  sliceSizes := ![1, 64]
  wf := gather_S295x64_S64x24x1_S64x24x64_2_0_n_n_0_2_164_wf

class Facts : Prop extends Facts₀ where

variable [Facts]
-- ==== Proof.SlotEmbedding.lean ====
/-
  The time-slot embedding both programs compute on the host, as ONE function of the two argument arrays, and the
  layout both results have.

  Each entry `t[b, s, ·]` of the integer array is a pair (day stamp, time stamp). With `W` a table of 295 rows of 64
  channels, the embedding of batch `b` at slot `s` is the sum of two rows of `W`: row `t[b, s, 0] mod 7` and row
  `7 + t[b, s, 1] mod 288`, the remainders taken with the sign of the divisor (a floor remainder, so both lie in
  `[0, 7)` and `[0, 288)`). A row index that is negative is wrapped once by the table's height before the look-up.
  The sums are then laid out channel-major: `emb t W (b, c, s) = W[day(b, s), c] + W[7 + time(b, s), c]`.

  Nothing below ever looks inside `emb`: the two programs apply the same operations, in the same order, to the same
  arguments, and what differs between them starts only after it — how the array `emb t W` of shape [64, 64, 24] is
  repeated along a new vertex axis of extent 1024. `overVertices e (b, n, c, s) = e (b, c, s)` is that repetition.
-/
import Idealize.ShloMosaic.PureOps
import Idealize.ShloMosaic.Lib.ValueIdx

noncomputable section

namespace Cert.SlotEmbedding

open Idealize.ShloMosaic Idealize.ShloMosaic.ValueIdx

/-! ## Shapes -/

/-- The stamps: batch × slot × (day, time). -/
abbrev Stamps : Shape := ⟨3, ![64, 24, 2]⟩
/-- One stamp per batch and slot, with a trailing unit axis (a slice of the stamps; an index vector of length one). -/
abbrev SlotCol : Shape := ⟨3, ![64, 24, 1]⟩
/-- One integer per batch and slot. -/
abbrev Slots : Shape := ⟨2, ![64, 24]⟩
/-- A single number. -/
abbrev One : Shape := ⟨0, ![]⟩
/-- The table: 7 day rows then 288 time rows, 64 channels each. -/
abbrev Table : Shape := ⟨2, ![295, 64]⟩
/-- Batch × slot × channel: the rows looked up. -/
abbrev SlotRows : Shape := ⟨3, ![64, 24, 64]⟩
/-- Batch × channel × slot: the embedding. -/
abbrev Emb : Shape := ⟨3, ![64, 64, 24]⟩
/-- Batch × vertex × channel × slot: the result. -/
abbrev Out : Shape := ⟨4, ![64, 1024, 64, 24]⟩

/-! ## The side conditions of the operations, decided on these shapes -/

theorem slices_day : Stamps.Slices ![0, 0, 0] SlotCol := by decide
theorem slices_time : Stamps.Slices ![0, 0, 1] SlotCol := by decide
theorem casts_col : SlotCol.ShapeCasts Slots := by decide
theorem bcast_one : One.BroadcastsInDim Slots (![] : Fin 0 → Fin Slots.rank) := by decide
theorem bcast_col : Slots.BroadcastsInDim SlotCol (![0, 1] : Fin 2 → Fin SlotCol.rank) := by decide
theorem transposes_rows : SlotRows.Transposes [0, 2, 1] Emb := by decide
theorem rows_wf : GatherDims.WF Table SlotCol SlotRows [2] [0] [] [0] [] 2 ![1, 64] := by decide

/-- Look up whole rows of the table: the index vector (of length one, along the trailing axis) names the row, the row's
    64 channels fill the result's last axis. -/
def rowDims : GatherDims Table SlotCol SlotRows where
  offsetDims := [2]
  collapsedSliceDims := [0]
  operandBatchingDims := []
  startIndicesBatchingDims := []
  startIndexMap := [0]
  indexVectorDim := 2
  sliceSizes := ![1, 64]
  wf := rows_wf

/-! ## The remainder with the divisor's sign -/

/-- `x mod d` with the sign of `d`, entry by entry (a zero divisor replaced by one): the truncating remainder `r`,
    plus `d` wherever `r` is non-zero and its sign differs from `d`'s. -/
def floorRem (x : IVec Slots 32) (d : IVec One 32) : IVec Slots 32 :=
  let d0 : IVec One 32 := id d
  let d1 : IVec One 32 := select (cmpi .eq d0 (constantI One 32 0#32)) (constantI One 32 1#32) d0
  let r : IVec Slots 32 := Host.remsi x (broadcastInDim Slots ![] bcast_one d1)
  let nonzero : IVec Slots 1 := cmpi .ne r (broadcastInDim Slots ![] bcast_one (constantI One 32 0#32))
  let rneg : IVec Slots 1 := cmpi .slt r (broadcastInDim Slots ![] bcast_one (constantI One 32 0#32))
  let dneg : IVec One 1 := cmpi .slt d1 (constantI One 32 0#32)
  let differ : IVec Slots 1 := cmpi .ne rneg (broadcastInDim Slots ![] bcast_one dneg)
  select (andi differ nonzero) (addi r (broadcastInDim Slots ![] bcast_one d1)) r

/-! ## Rows of the table at the slots' indices -/

/-- The rows of the table at one index per batch and slot: a negative index is wrapped by the table's height, 295, then
    the row is looked up. -/
def rowsAt {F : FTy → Type} (W : FVec F Table .f32) (k : IVec Slots 32) : FVec F SlotRows .f32 :=
  let neg : IVec Slots 1 := cmpi .slt k (broadcastInDim Slots ![] bcast_one (constantI One 32 0#32))
  let wrapped : IVec Slots 32 := addi k (broadcastInDim Slots ![] bcast_one (constantI One 32 295#32))
  Host.gather rowDims W (broadcastInDim SlotCol ![0, 1] bcast_col (select neg wrapped k))

/-! ## The embedding -/

/-- The day stamps and the time stamps, one per batch and slot. -/
def dayStamp (t : IVec Stamps 32) : IVec Slots 32 :=
  shapeCast Slots (extractStridedSlice SlotCol ![0, 0, 0] t slices_day) casts_col
def timeStamp (t : IVec Stamps 32) : IVec Slots 32 :=
  shapeCast Slots (extractStridedSlice SlotCol ![0, 0, 1] t slices_time) casts_col

/-- The embedding, channel-major: the day row plus the time row of the table, for every batch and slot. -/
def emb {F : FTy → Type} [FloatOps F] (t : IVec Stamps 32) (W : FVec F Table .f32) : FVec F Emb .f32 :=
  let day : IVec Slots 32 := floorRem (dayStamp t) (constantI One 32 7#32)
  let time : IVec Slots 32 := floorRem (timeStamp t) (constantI One 32 288#32)
  let dayRows : FVec F SlotRows .f32 := rowsAt W day
  let timeRows : FVec F SlotRows .f32 :=
    rowsAt W (addi (broadcastInDim Slots ![] bcast_one (constantI One 32 7#32)) time)
  transpose Emb [0, 2, 1] (addf dayRows timeRows) transposes_rows

/-! ## The result's layout -/

/-- The embedding repeated along the vertex axis: every vertex of a batch holds that batch's embedding. -/
def overVertices {α : Type} (e : Emb.Idx → α) : Out.Idx → α :=
  fun i => e (ix3 (i 0) (i 2) (i 3))

end Cert.SlotEmbedding

end
-- ==== Proof.KernelEntry.lean ====
/-
  What the kernel's region finds in the array its input window stages. The host operations before the region are, one
  for one, those of `Cert.SlotEmbedding.emb` applied to the two arguments, followed by one reshape: channel and slot
  merged into 1536 lanes, a single-row slab per batch.
-/
import proofs.«132990_j33981781246639_2_alg».proof.Proof.Gen.KernelIdeal.Frame
import proofs.«132990_j33981781246639_2_alg».proof.Proof.SlotEmbedding
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.StableHlo

variable {F : FTy → Type} [FloatOps F]

-- the row look-up and the truncating remainder are searches and case splits over their operands' entries: kept folded, the
-- comparison below meets them only as the same operation applied to equal operands
attribute [local irreducible] Host.gather Host.remsi in
set_option maxRecDepth 16384 in
set_option maxHeartbeats 1000000 in
/-- The fold of the host operations before the region, read at the staged array: the embedding of the arguments, its last
    two axes merged. Each operation's result is read at the buffer it writes and passed on at every other, by computation. -/
theorem entry_fold (V₀ : Valuation τ sig (Elt F)) :
    after (List.flatten [hostOps0, hostOps0_1, hostOps0_2, hostOps0_3, hostOps0_4]) V₀ (main_v24 : DevRef τ sig)
      = shapeCast S64x1x1536 (Cert.SlotEmbedding.emb (F := F) (V₀ (main_arg0 : DevRef τ sig)) (V₀ (main_arg1 : DevRef τ sig)))
          shapeCasts_S64x64x24_S64x1x1536 := by
  simp only [hostOps0, hostOps0_1, hostOps0_2, hostOps0_3, hostOps0_4, List.flatten_cons, List.flatten_nil, List.append_nil,
    List.cons_append, List.nil_append]
  after_results_simp
  rfl

/-- The staged array as the region finds it, on every core. -/
theorem entry_slabs (m : (ℓ : Loc nD τ sig) → Buf (Elt F) ℓ) (c : Dev nD) :
    V m c main_v24
      = shapeCast S64x1x1536 (Cert.SlotEmbedding.emb (F := F)
          (m ((c.tc : Thread nD τ).loc main_arg0)) (m ((c.tc : Thread nD τ).loc main_arg1))) shapeCasts_S64x64x24_S64x1x1536 :=
  entry_fold (F := F) (fun b => m (c, b))

end Cert.KernelIdeal.KValue

end
-- ==== Proof.KernelBlocks.lean ====
/-
  The array the kernel's region leaves. Grid point `t` (one per batch, 64 of them) loads the slab of batch `t` — block
  `(t, 0, 0)` of the staged [64, 1, 1536] array — and stores it broadcast along the rows as block `(t, 0, 0)` of the
  [64, 1024, 1536] result. So what a point writes back is a block of ONE function of the staged array,
  `slabRows x (b, n, l) = x (b, 0, l)`; the 64 blocks cover the result; and the array after the region is `slabRows` of
  the staged array.
-/
import proofs.«132990_j33981781246639_2_alg».proof.Proof.Gen.KernelIdeal.Frame
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable {F : FTy → Type} [FloatOps F]

/-- Every batch's one-row slab repeated as 1024 rows. -/
def slabRows {α : Type} (x : S64x1x1536.Idx → α) : S64x1024x1536.Idx → α :=
  fun i => x (ix3 (i 0) (0 : Fin 1) (i 2))

theorem zero_offsets : (![0, 0, 0] : Fin 3 → Nat) = fun _ => 0 := funext fun a => by fin_cases a <;> rfl

/-- The body's stored value, entry by entry: row `r` of the block is the loaded slab's one row. -/
theorem stored_apply (x0 : Vec F S1x1x1536 .f32) (p : Fin 1) (r : Fin 1024) (l : Fin 1536) :
    k0_pay1 x0 (ix3 p r l) = x0 (ix3 (0 : Fin 1) (0 : Fin 1) l) := by
  unfold k0_pay1
  rw [shapeCast_self, shapeCast_self]
  refine broadcastTo_apply x0 _ (ix3 p r l) (ix3 (0 : Fin 1) (0 : Fin 1) l) fun a => ?_
  match a with
  | ⟨0, _⟩ => rfl
  | ⟨1, _⟩ => rfl
  | ⟨2, _⟩ => rfl

/-- The printed index maps, decided over the grid: at point `t` both windows are at block `(t, 0, 0)`. -/
theorem block_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Every batch is some point's. -/
theorem block_onto : ∀ q : Fin 64, ∃ t : Fin cfg0.N, win0_1.index t = ![q.val, 0, 0] :=
  (by decide +kernel : ∀ q : Fin 64, ∃ t : Fin grid0.N, win0_1.index t = ![q.val, 0, 0])

variable (m : (ℓ : Loc nD τ sig) → Buf (Elt F) ℓ)

/-- WHAT POINT `t` WRITES BACK is block `t` of `slabRows` of the staged array as the region finds it. -/
theorem flushed_eq (c : Dev nD) (t : Fin cfg0.N) :
    (dats m 0 c).flushed 1 t = ((cfg0.win 1).blk t).view.read (Elt F) (slabRows (V m c main_v24)) := by
  show (cfg0.win 1).cut (grid0.coords t) ((dats m 0 c).after 1 t) = _
  rw [after0_1]
  unfold out0_1
  rw [View.canon_unit_zero zero_offsets]
  simp only [View.ld_unit_zero (S := S1x1x1536) zero_offsets]
  obtain ⟨e0, e1, e2, e3, e4, e5⟩ := block_index t
  funext j
  show k0_pay1 (iblk m c 0 t) j = slabRows (V m c main_v24) (((cfg0.win 1).blk t).view.emb j)
  obtain ⟨p, r, l, rfl⟩ : ∃ (p : Fin 1) (r : Fin 1024) (l : Fin 1536), j = ix3 p r l := ⟨j 0, j 1, j 2, eq_ix3 j⟩
  refine (stored_apply (iblk m c 0 t) p r l).trans ?_
  show V m c main_v24 (((cfg0.win 0).blk t).view.emb (ix3 (0 : Fin 1) (0 : Fin 1) l))
    = V m c main_v24 (ix3 ((((cfg0.win 1).blk t).view.emb (ix3 p r l)) 0) (0 : Fin 1) ((((cfg0.win 1).blk t).view.emb (ix3 p r l)) 2))
  refine congrArg (V m c main_v24) ?_
  funext a; apply Fin.ext
  have hp : p.val = 0 := by omega
  match a with
  | ⟨0, _⟩ => show win0_0.index t (0 : Fin 3) * 1 + 1 * 0 = win0_1.index t (0 : Fin 3) * 1 + 1 * p.val; omega
  | ⟨1, _⟩ => show win0_0.index t (1 : Fin 3) * 1 + 1 * 0 = 0; omega
  | ⟨2, _⟩ => show win0_0.index t (2 : Fin 3) * 1536 + 1 * l.val = win0_1.index t (2 : Fin 3) * 1536 + 1 * l.val; omega

/-- An index of the result is in point `t`'s block iff each coordinate is in the block's range on its axis. -/
theorem mem_block (t : Fin cfg0.N) (i : S64x1024x1536.Idx) :
    i ∈ ((cfg0.win 1).blk t).view.set ↔ ∀ a : Fin 3, win0_1.index t a * S1x1024x1536.size a ≤ (i a).val
      ∧ (i a).val < win0_1.index t a * S1x1024x1536.size a + S1x1024x1536.size a := by
  show i ∈ ((View.whole main_v25).slice (win0_1.rect t)).set ↔ _
  rw [View.set_slice_whole, Rect.mem_set_unit]
  exact Iff.rfl

/-- The blocks cover the result: index `(b, n, l)` is in the block of the point at batch `b`. -/
theorem covered (i : S64x1024x1536.Idx) :
    ∃ t : Fin cfg0.N, (cfg0.win 1).flush t = true ∧ i ∈ ((cfg0.win 1).blk t).view.set := by
  have hi0 : (i 0).val < 64 := (i 0).isLt
  have hi1 : (i 1).val < 1024 := (i 1).isLt
  have hi2 : (i 2).val < 1536 := (i 2).isLt
  obtain ⟨t, ht⟩ := block_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1536 ≤ (i 2).val ∧ (i 2).val < win0_1.index t (2 : Fin 3) * 1536 + 1536; omega

/-- THE ARRAY after the region: every batch's staged slab repeated as 1024 rows. -/
theorem region_result (c : Dev nD) : (dats m 0 c).arrAt 1 cfg0.N = slabRows (V m c main_v24) :=
  (dats m 0 c).arrAt_eq_of_cover 1 (slabRows (V m c main_v24)) (fun t _ => flushed_eq m c t) covered

end Cert.KernelIdeal.KValue

end
-- ==== Proof.VertexAxis.lean ====
/-
  Two ways to repeat the embedding along the vertex axis, and that both give `overVertices`.

  The reference inserts a unit axis after the batch axis, [64, 64, 24] → [64, 1, 64, 24], and broadcasts it to 1024
  vertices. The kernel's program first merges channel and slot into one axis of 64 · 24 = 1536 lanes, one slab
  [1, 1536] per batch; repeats every batch's slab as 1024 rows, [64, 1, 1536] → [64, 1024, 1536]; and splits the lanes
  back into channel and slot. Merging and splitting are re-readings of the same row-major order: lane `l = c · 24 + s`
  of a slab is entry `(c, s)`. So at `(b, n, c, s)` both arrays hold the embedding at `(b, c, s)`.
-/
import proofs.«132990_j33981781246639_2_alg».proof.Proof.SlotEmbedding
import Idealize.ShloMosaic.Lib.Pipeline.Value
import Idealize.ShloMosaic.Lib.ValueIdx

noncomputable section

namespace Cert.SlotEmbedding

open Idealize.ShloMosaic Idealize.ShloMosaic.ValueIdx

/-- The embedding with a unit vertex axis. -/
abbrev Unsqueezed : Shape := ⟨4, ![64, 1, 64, 24]⟩
/-- Per batch one slab: a single row of 1536 = 64 · 24 lanes. -/
abbrev Slab : Shape := ⟨3, ![64, 1, 1536]⟩
/-- Per batch 1024 rows of 1536 lanes. -/
abbrev Slabs : Shape := ⟨3, ![64, 1024, 1536]⟩

variable {α : Type}

theorem overVertices_apply (e : Emb.Idx → α) (b : Fin 64) (n : Fin 1024) (c : Fin 64) (s : Fin 24) :
    overVertices e (ix4 b n c s) = e (ix3 b c s) := rfl

/-- Every index of the result is given by its four coordinates. -/
theorem out_coords (i : Out.Idx) : ∃ (b : Fin 64) (n : Fin 1024) (c : Fin 64) (s : Fin 24), i = ix4 b n c s :=
  ⟨i 0, i 1, i 2, i 3, eq_ix4 i⟩

/-- The reference's road: a unit axis inserted, then broadcast over the vertices. -/
theorem broadcast_vertices (e : Emb.Idx → α)
    (h1 : Emb.BroadcastsInDim Unsqueezed (![0, 2, 3] : Fin 3 → Fin Unsqueezed.rank))
    (h2 : Unsqueezed.BroadcastsInDim Out (![0, 1, 2, 3] : Fin 4 → Fin Out.rank)) :
    broadcastInDim Out ![0, 1, 2, 3] h2 (broadcastInDim Unsqueezed ![0, 2, 3] h1 e) = overVertices e := by
  funext i
  obtain ⟨b, n, c, s, rfl⟩ := out_coords i
  refine (broadcastInDim_apply _ h2 _ (ix4 b n c s) (ix4 b (0 : Fin 1) c s) fun a => ?_).trans ?_
  · match a with
    | ⟨0, _⟩ => rfl
    | ⟨1, _⟩ => rfl
    | ⟨2, _⟩ => rfl
    | ⟨3, _⟩ => rfl
  refine (broadcastInDim_apply _ h1 e (ix4 b (0 : Fin 1) c s) (ix3 b c s) fun a => ?_).trans ?_
  · match a with
    | ⟨0, _⟩ => rfl
    | ⟨1, _⟩ => rfl
    | ⟨2, _⟩ => rfl
  rfl

/-- Lane `c · 24 + s` of a slab. -/
abbrev lane (c : Fin 64) (s : Fin 24) : Fin 1536 := ⟨c.val * 24 + s.val, by have := c.isLt; have := s.isLt; omega⟩

/-- Channel and slot merged into lanes: the slab of batch `b` holds at lane `c · 24 + s` the embedding at `(b, c, s)`. -/
theorem merged_apply (e : Emb.Idx → α) (h : Emb.ShapeCasts Slab) (b : Fin 64) (u : Fin 1) (c : Fin 64) (s : Fin 24) :
    shapeCast Slab e h (ix3 b u (lane c s)) = e (ix3 b c s) :=
  shapeCast_apply e h _ _ (by
    have hu : u.val = 0 := by omega
    rw [Shape.rowMajor_val_three, Shape.rowMajor_val_three]
    show (b.val * 64 + c.val) * 24 + s.val = (b.val * 1 + u.val) * 1536 + (c.val * 24 + s.val)
    rw [hu]; omega)

/-- The lanes split back into channel and slot: entry `(b, n, c, s)` is row `n` of batch `b` at lane `c · 24 + s`. -/
theorem split_apply (y : Slabs.Idx → α) (h : Slabs.ShapeCasts Out) (b : Fin 64) (n : Fin 1024) (c : Fin 64) (s : Fin 24) :
    shapeCast Out y h (ix4 b n c s) = y (ix3 b n (lane c s)) :=
  shapeCast_apply y h _ _ (by
    rw [Shape.rowMajor_val_three, Shape.rowMajor_val_four]
    show (b.val * 1024 + n.val) * 1536 + (c.val * 24 + s.val) = ((b.val * 1024 + n.val) * 64 + c.val) * 24 + s.val
    omega)

/-- The kernel's road: merge, repeat each batch's slab as 1024 rows, split. -/
theorem repeat_rows (e : Emb.Idx → α) (h1 : Emb.ShapeCasts Slab) (h2 : Slabs.ShapeCasts Out) :
    shapeCast Out (fun i : Slabs.Idx => shapeCast Slab e h1 (ix3 (i 0) (0 : Fin 1) (i 2))) h2 = overVertices e := by
  funext i
  obtain ⟨b, n, c, s, rfl⟩ := out_coords i
  rw [split_apply]
  exact merged_apply e h1 b 0 c s

end Cert.SlotEmbedding

end
-- ==== Proof.KernelValue.lean ====
/-
  What the kernel's program computes. After the region one reshape splits the 1536 lanes back into channel and slot.
  The region's array holds every batch's slab repeated as 1024 rows, the slabs are the embedding of the arguments with
  channel and slot merged, and merging, repeating and splitting is the repetition along the vertex axis: the result
  buffer ends at `overVertices` of the embedding, as the reference's does.
-/
import proofs.«132990_j33981781246639_2_alg».proof.Proof.KernelEntry
import proofs.«132990_j33981781246639_2_alg».proof.Proof.KernelBlocks
import proofs.«132990_j33981781246639_2_alg».proof.Proof.VertexAxis

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The result buffer after the line that follows the region: the region's array, its lanes split into channel and slot —
    the embedding of the arguments repeated over the vertices. -/
theorem result_eq (c : Dev nD) :
    Pipeline.afterTail₀ cfgs (dats m) 0 (V0 m) [hostOps1] c main_v26
      = Cert.SlotEmbedding.overVertices (Cert.SlotEmbedding.emb (F := F)
          (m ((c.tc : Thread nD τ).loc main_arg0)) (m ((c.tc : Thread nD τ).loc main_arg1))) := by
  unfold Pipeline.afterTail₀
  show StableHlo.after hostOps1 _ (Proc.devRef .tc main_v26) = _
  after_results
  rw [show Pipeline.withArrays (cfgs 0).spec c (V0 m c) (fun w => (dats m 0 c).arrAt w (cfgs 0).N) (Proc.devRef .tc main_v25)
      = (dats m 0 c).arrAt 1 cfg0.N from Pipeline.withArrays_arr spec0 launch0.win.arr_inj c _ _ 1]
  rw [region_result m c, entry_slabs m c]
  exact Cert.SlotEmbedding.repeat_rows _ _ _

/-- The kernel program's run, read: every weakly fair execution terminates with the result buffer holding the embedding
    of the arguments repeated over the vertices, the arguments unchanged. -/
theorem run : θ_run defs (onTc (τ := τ) (main (F := F))) ⟨m, fun _ => 0, ρ⟩ fun r => ∀ c : Dev nD,
      r.2.mem ((c.tc : Thread nD τ).loc main_v26)
          = Cert.SlotEmbedding.overVertices (Cert.SlotEmbedding.emb (F := F)
              (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v26 (Pipeline.mem_restRefs_of main_v26 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.ReferenceRun.lean ====
/-
  The reference program's run. Its @main is a straight line of host operations: two slices of the stamps, each
  reduced by the floor remainder (a function the program calls twice, its twenty-one operations listed here at each
  call over that call's own buffers), the two row look-ups with their index wrap, the sum, the transposition, and the
  two broadcasts that insert the vertex axis and fill it. Every weakly fair execution therefore terminates, and each
  buffer ends at the fold of the operations over the launch contents.
-/
import proofs.«132990_j33981781246639_2_alg».proof.Proof.Gen.ReferenceIdeal
import Idealize.ShloMosaic.Lib.StableHlo.Run
import Idealize.ShloMosaic.Lib.Pipeline.Regions

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- @main's 73 operations in order, the two calls of the remainder function unfolded at their sites. -/
abbrev ops : List (HloOp τ sig (Elt F)) :=
  [ StableHlo.unary main_arg0 main_v0 ((extractStridedSlice S64x24x1 ![0, 0, 0] · slices_S64x24x2_S64x24x1_0_0_0) : (⟨S64x24x2, .i32⟩ : BufTy).Contents (Elt F) → (⟨S64x24x1, .i32⟩ : BufTy).Contents (Elt F)),
    StableHlo.reshape main_v0 main_v1 rfl shapeCasts_S64x24x1_S64x24,
    StableHlo.nullary main_c (constantI S_ 32 7#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S64x24, .i32⟩) (broadcastInDim S64x24 ![] bcast_S_S64x24),
    StableHlo.TRef.binary (.of main_v1 : StableHlo.TRef sig ⟨S64x24, .i32⟩) (.of main_call0_v3 : StableHlo.TRef sig ⟨S64x24, .i32⟩) (.of main_call0_v4 : StableHlo.TRef sig ⟨S64x24, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S64x24, .i32⟩) (broadcastInDim S64x24 ![] bcast_S_S64x24),
    StableHlo.TRef.binary (.of main_call0_v4 : StableHlo.TRef sig ⟨S64x24, .i32⟩) (.of main_call0_v5 : StableHlo.TRef sig ⟨S64x24, .i32⟩) (.of main_call0_v6 : StableHlo.TRef sig ⟨S64x24, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S64x24, .i32⟩) (broadcastInDim S64x24 ![] bcast_S_S64x24),
    StableHlo.TRef.binary (.of main_call0_v4 : StableHlo.TRef sig ⟨S64x24, .i32⟩) (.of main_call0_v7 : StableHlo.TRef sig ⟨S64x24, .i32⟩) (.of main_call0_v8 : StableHlo.TRef sig ⟨S64x24, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S64x24, .i1⟩) (broadcastInDim S64x24 ![] bcast_S_S64x24),
    StableHlo.TRef.binary (.of main_call0_v8 : StableHlo.TRef sig ⟨S64x24, .i1⟩) (.of main_call0_v10 : StableHlo.TRef sig ⟨S64x24, .i1⟩) (.of main_call0_v11 : StableHlo.TRef sig ⟨S64x24, .i1⟩) (cmpi .ne),
    StableHlo.TRef.binary (.of main_call0_v11 : StableHlo.TRef sig ⟨S64x24, .i1⟩) (.of main_call0_v6 : StableHlo.TRef sig ⟨S64x24, .i1⟩) (.of main_call0_v12 : StableHlo.TRef sig ⟨S64x24, .i1⟩) andi,
    StableHlo.TRef.unary main_call0_call0.v0 (.of main_call0_v13 : StableHlo.TRef sig ⟨S64x24, .i32⟩) (broadcastInDim S64x24 ![] bcast_S_S64x24),
    StableHlo.TRef.binary (.of main_call0_v4 : StableHlo.TRef sig ⟨S64x24, .i32⟩) (.of main_call0_v13 : StableHlo.TRef sig ⟨S64x24, .i32⟩) (.of main_call0_v14 : StableHlo.TRef sig ⟨S64x24, .i32⟩) addi,
    StableHlo.TRef.ternary (.of main_call0_v12 : StableHlo.TRef sig ⟨S64x24, .i1⟩) (.of main_call0_v14 : StableHlo.TRef sig ⟨S64x24, .i32⟩) (.of main_call0_v4 : StableHlo.TRef sig ⟨S64x24, .i32⟩) (.of main_v2 : StableHlo.TRef sig ⟨S64x24, .i32⟩) select,
    StableHlo.unary main_arg0 main_v3 ((extractStridedSlice S64x24x1 ![0, 0, 1] · slices_S64x24x2_S64x24x1_0_0_1) : (⟨S64x24x2, .i32⟩ : BufTy).Contents (Elt F) → (⟨S64x24x1, .i32⟩ : BufTy).Contents (Elt F)),
    StableHlo.reshape main_v3 main_v4 rfl shapeCasts_S64x24x1_S64x24,
    StableHlo.nullary main_c_0 (constantI S_ 32 288#32),
    StableHlo.TRef.unary (.of main_c_0 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S64x24, .i32⟩) (broadcastInDim S64x24 ![] bcast_S_S64x24),
    StableHlo.TRef.binary (.of main_v4 : StableHlo.TRef sig ⟨S64x24, .i32⟩) (.of main_call1_v3 : StableHlo.TRef sig ⟨S64x24, .i32⟩) (.of main_call1_v4 : StableHlo.TRef sig ⟨S64x24, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S64x24, .i32⟩) (broadcastInDim S64x24 ![] bcast_S_S64x24),
    StableHlo.TRef.binary (.of main_call1_v4 : StableHlo.TRef sig ⟨S64x24, .i32⟩) (.of main_call1_v5 : StableHlo.TRef sig ⟨S64x24, .i32⟩) (.of main_call1_v6 : StableHlo.TRef sig ⟨S64x24, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S64x24, .i32⟩) (broadcastInDim S64x24 ![] bcast_S_S64x24),
    StableHlo.TRef.binary (.of main_call1_v4 : StableHlo.TRef sig ⟨S64x24, .i32⟩) (.of main_call1_v7 : StableHlo.TRef sig ⟨S64x24, .i32⟩) (.of main_call1_v8 : StableHlo.TRef sig ⟨S64x24, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S64x24, .i1⟩) (broadcastInDim S64x24 ![] bcast_S_S64x24),
    StableHlo.TRef.binary (.of main_call1_v8 : StableHlo.TRef sig ⟨S64x24, .i1⟩) (.of main_call1_v10 : StableHlo.TRef sig ⟨S64x24, .i1⟩) (.of main_call1_v11 : StableHlo.TRef sig ⟨S64x24, .i1⟩) (cmpi .ne),
    StableHlo.TRef.binary (.of main_call1_v11 : StableHlo.TRef sig ⟨S64x24, .i1⟩) (.of main_call1_v6 : StableHlo.TRef sig ⟨S64x24, .i1⟩) (.of main_call1_v12 : StableHlo.TRef sig ⟨S64x24, .i1⟩) andi,
    StableHlo.TRef.unary main_call1_call0.v0 (.of main_call1_v13 : StableHlo.TRef sig ⟨S64x24, .i32⟩) (broadcastInDim S64x24 ![] bcast_S_S64x24),
    StableHlo.TRef.binary (.of main_call1_v4 : StableHlo.TRef sig ⟨S64x24, .i32⟩) (.of main_call1_v13 : StableHlo.TRef sig ⟨S64x24, .i32⟩) (.of main_call1_v14 : StableHlo.TRef sig ⟨S64x24, .i32⟩) addi,
    StableHlo.TRef.ternary (.of main_call1_v12 : StableHlo.TRef sig ⟨S64x24, .i1⟩) (.of main_call1_v14 : StableHlo.TRef sig ⟨S64x24, .i32⟩) (.of main_call1_v4 : StableHlo.TRef sig ⟨S64x24, .i32⟩) (.of main_v5 : StableHlo.TRef sig ⟨S64x24, .i32⟩) select,
    StableHlo.nullary main_c_1 (constantI S_ 32 0#32),
    StableHlo.unary main_c_1 main_v6 (broadcastInDim S64x24 ![] bcast_S_S64x24 : (⟨S_, .i32⟩ : BufTy).Contents (Elt F) → (⟨S64x24, .i32⟩ : BufTy).Contents (Elt F)),
    StableHlo.binary main_v2 main_v6 main_v7 (cmpi .slt : (⟨S64x24, .i32⟩ : BufTy).Contents (Elt F) → (⟨S64x24, .i32⟩ : BufTy).Contents (Elt F) → (⟨S64x24, .i1⟩ : BufTy).Contents (Elt F)),
    StableHlo.nullary main_c_2 (constantI S_ 32 295#32),
    StableHlo.unary main_c_2 main_v8 (broadcastInDim S64x24 ![] bcast_S_S64x24 : (⟨S_, .i32⟩ : BufTy).Contents (Elt F) → (⟨S64x24, .i32⟩ : BufTy).Contents (Elt F)),
    StableHlo.binary main_v2 main_v8 main_v9 (addi : (⟨S64x24, .i32⟩ : BufTy).Contents (Elt F) → (⟨S64x24, .i32⟩ : BufTy).Contents (Elt F) → (⟨S64x24, .i32⟩ : BufTy).Contents (Elt F)),
    StableHlo.ternary main_v7 main_v9 main_v2 main_v10 (select : (⟨S64x24, .i1⟩ : BufTy).Contents (Elt F) → (⟨S64x24, .i32⟩ : BufTy).Contents (Elt F) → (⟨S64x24, .i32⟩ : BufTy).Contents (Elt F) → (⟨S64x24, .i32⟩ : BufTy).Contents (Elt F)),
    StableHlo.unary main_v10 main_v11 (broadcastInDim S64x24x1 ![0, 1] bcast_S64x24_S64x24x1_0_1 : (⟨S64x24, .i32⟩ : BufTy).Contents (Elt F) → (⟨S64x24x1, .i32⟩ : BufTy).Contents (Elt F)),
    StableHlo.binary main_arg1 main_v11 main_v12 ((fun x i => Host.gather gather_S295x64_S64x24x1_S64x24x64_2_0_n_n_0_2_164 x i) : (⟨S295x64, .f32⟩ : BufTy).Contents (Elt F) → (⟨S64x24x1, .i32⟩ : BufTy).Contents (Elt F) → (⟨S64x24x64, .f32⟩ : BufTy).Contents (Elt F)),
    StableHlo.nullary main_c_3 (constantI S_ 32 7#32),
    StableHlo.unary main_c_3 main_v13 (broadcastInDim S64x24 ![] bcast_S_S64x24 : (⟨S_, .i32⟩ : BufTy).Contents (Elt F) → (⟨S64x24, .i32⟩ : BufTy).Contents (Elt F)),
    StableHlo.binary main_v13 main_v5 main_v14 (addi : (⟨S64x24, .i32⟩ : BufTy).Contents (Elt F) → (⟨S64x24, .i32⟩ : BufTy).Contents (Elt F) → (⟨S64x24, .i32⟩ : BufTy).Contents (Elt F)),
    StableHlo.nullary main_c_4 (constantI S_ 32 0#32),
    StableHlo.unary main_c_4 main_v15 (broadcastInDim S64x24 ![] bcast_S_S64x24 : (⟨S_, .i32⟩ : BufTy).Contents (Elt F) → (⟨S64x24, .i32⟩ : BufTy).Contents (Elt F)),
    StableHlo.binary main_v14 main_v15 main_v16 (cmpi .slt : (⟨S64x24, .i32⟩ : BufTy).Contents (Elt F) → (⟨S64x24, .i32⟩ : BufTy).Contents (Elt F) → (⟨S64x24, .i1⟩ : BufTy).Contents (Elt F)),
    StableHlo.nullary main_c_5 (constantI S_ 32 295#32),
    StableHlo.unary main_c_5 main_v17 (broadcastInDim S64x24 ![] bcast_S_S64x24 : (⟨S_, .i32⟩ : BufTy).Contents (Elt F) → (⟨S64x24, .i32⟩ : BufTy).Contents (Elt F)),
    StableHlo.binary main_v14 main_v17 main_v18 (addi : (⟨S64x24, .i32⟩ : BufTy).Contents (Elt F) → (⟨S64x24, .i32⟩ : BufTy).Contents (Elt F) → (⟨S64x24, .i32⟩ : BufTy).Contents (Elt F)),
    StableHlo.ternary main_v16 main_v18 main_v14 main_v19 (select : (⟨S64x24, .i1⟩ : BufTy).Contents (Elt F) → (⟨S64x24, .i32⟩ : BufTy).Contents (Elt F) → (⟨S64x24, .i32⟩ : BufTy).Contents (Elt F) → (⟨S64x24, .i32⟩ : BufTy).Contents (Elt F)),
    StableHlo.unary main_v19 main_v20 (broadcastInDim S64x24x1 ![0, 1] bcast_S64x24_S64x24x1_0_1 : (⟨S64x24, .i32⟩ : BufTy).Contents (Elt F) → (⟨S64x24x1, .i32⟩ : BufTy).Contents (Elt F)),
    StableHlo.binary main_arg1 main_v20 main_v21 ((fun x i => Host.gather gather_S295x64_S64x24x1_S64x24x64_2_0_n_n_0_2_164 x i) : (⟨S295x64, .f32⟩ : BufTy).Contents (Elt F) → (⟨S64x24x1, .i32⟩ : BufTy).Contents (Elt F) → (⟨S64x24x64, .f32⟩ : BufTy).Contents (Elt F)),
    StableHlo.binary main_v12 main_v21 main_v22 (addf : (⟨S64x24x64, .f32⟩ : BufTy).Contents (Elt F) → (⟨S64x24x64, .f32⟩ : BufTy).Contents (Elt F) → (⟨S64x24x64, .f32⟩ : BufTy).Contents (Elt F)),
    StableHlo.unary main_v22 main_v23 ((transpose S64x64x24 [0, 2, 1] · transposes_S64x24x64_S64x64x24_0_2_1) : (⟨S64x24x64, .f32⟩ : BufTy).Contents (Elt F) → (⟨S64x64x24, .f32⟩ : BufTy).Contents (Elt F)),
    StableHlo.unary main_v23 main_v24 (broadcastInDim S64x1x64x24 ![0, 2, 3] bcast_S64x64x24_S64x1x64x24_0_2_3 : (⟨S64x64x24, .f32⟩ : BufTy).Contents (Elt F) → (⟨S64x1x64x24, .f32⟩ : BufTy).Contents (Elt F)),
    StableHlo.unary main_v24 main_v25 (broadcastInDim S64x1024x64x24 ![0, 1, 2, 3] bcast_S64x1x64x24_S64x1024x64x24_0_1_2_3 : (⟨S64x1x64x24, .f32⟩ : BufTy).Contents (Elt F) → (⟨S64x1024x64x24, .f32⟩ : BufTy).Contents (Elt F)) ]

/-- @main is that straight line: the called functions' bodies unfold at their calls and sequencing re-associates, all by
    computation (each step of a program is a constructor, through which a bind moves inward). -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Each operation touches TensorCore buffers only. -/
theorem ops_sub : (ops : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.binary_bufs_sub ..,
    StableHlo.nullary_bufs_sub .., StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.nullary_bufs_sub .., StableHlo.binary_bufs_sub ..,
    StableHlo.unary_bufs_sub .., StableHlo.binary_bufs_sub .., StableHlo.binary_bufs_sub .., StableHlo.unary_bufs_sub .., StableHlo.binary_bufs_sub .., StableHlo.ternary_bufs_sub ..,
    StableHlo.unary_bufs_sub .., StableHlo.reshape_bufs_sub .., StableHlo.nullary_bufs_sub .., StableHlo.unary_bufs_sub .., StableHlo.nullary_bufs_sub .., StableHlo.binary_bufs_sub ..,
    StableHlo.nullary_bufs_sub .., StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.nullary_bufs_sub .., StableHlo.binary_bufs_sub ..,
    StableHlo.unary_bufs_sub .., StableHlo.binary_bufs_sub .., StableHlo.binary_bufs_sub .., StableHlo.unary_bufs_sub .., StableHlo.binary_bufs_sub .., StableHlo.ternary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub .., StableHlo.unary_bufs_sub .., StableHlo.unary_bufs_sub ..,
    StableHlo.unary_bufs_sub ..⟩

/-- From any memory with zero counters every weakly fair execution of @main terminates, and each TensorCore buffer ends at
    the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ

end Cert.ReferenceIdeal.RefValue

end
-- ==== Proof.ReferenceValue.lean ====
/-
  What the reference computes. The fold of its operations, read at the result buffer, is the two closing broadcasts
  applied to the embedding of the two arguments — the operations before them are, one for one, those of
  `Cert.SlotEmbedding.emb` — and the two broadcasts repeat the embedding along the vertex axis. No operation writes an
  argument buffer.
-/
import proofs.«132990_j33981781246639_2_alg».proof.Proof.ReferenceRun
import proofs.«132990_j33981781246639_2_alg».proof.Proof.VertexAxis

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

-- the row look-up and the truncating remainder are searches and case splits over their operands' entries: kept folded, the
-- comparison below meets them only as the same operation applied to equal operands
attribute [local irreducible] Host.gather Host.remsi in
set_option maxRecDepth 16384 in
set_option maxHeartbeats 1000000 in
/-- The fold at the result buffer: the embedding of the arguments, given a unit vertex axis and broadcast along it. Each
    operation's result is read at the buffer it writes and passed on at every other, by computation. -/
theorem result_fold (V : Valuation τ sig (Elt F)) :
    after ops V (main_v25 : DevRef τ sig)
      = broadcastInDim S64x1024x64x24 ![0, 1, 2, 3] bcast_S64x1x64x24_S64x1024x64x24_0_1_2_3
          (broadcastInDim S64x1x64x24 ![0, 2, 3] bcast_S64x64x24_S64x1x64x24_0_2_3
            (Cert.SlotEmbedding.emb (F := F) (V (main_arg0 : DevRef τ sig)) (V (main_arg1 : DevRef τ sig)))) := by
  after_results_simp
  rfl

set_option maxRecDepth 16384 in
theorem arg0_fold (V : Valuation τ sig (Elt F)) :
    after ops V (main_arg0 : DevRef τ sig) = V (main_arg0 : DevRef τ sig) := by
  simp only [after_cons, after_nil]
  rfl

set_option maxRecDepth 16384 in
theorem arg1_fold (V : Valuation τ sig (Elt F)) :
    after ops V (main_arg1 : DevRef τ sig) = V (main_arg1 : DevRef τ sig) := by
  simp only [after_cons, after_nil]
  rfl

/-- The reference's run, read: every weakly fair execution terminates with the result buffer holding the embedding of the
    arguments repeated over the vertices, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = Cert.SlotEmbedding.overVertices (Cert.SlotEmbedding.emb (F := F)
              (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c main_v25).trans (result_fold _)).trans (Cert.SlotEmbedding.broadcast_vertices _ _ _),
        (h c main_arg0).trans (arg0_fold _), (h c main_arg1).trans (arg1_fold _)⟩)
    (run_fold (F := F) m ρ)

end Cert.ReferenceIdeal.RefValue

end
-- ==== Proof.lean ====
/-
  The certificate of a time-slot embedding repeated over the vertices of a graph.

  Both programs take integer stamps `t : [64, 24, 2]` (per batch and slot a day stamp and a time stamp) and a table
  `W : [295, 64]`, and return the array of shape [64, 1024, 64, 24] whose entry `(b, n, c, s)` is
      W[t[b, s, 0] mod 7, c] + W[7 + t[b, s, 1] mod 288, c]
  for every vertex `n`: one embedding per batch, the same at all 1024 vertices. They compute the embedding
  `e : [64, 64, 24]` by the same host operations (`Cert.SlotEmbedding.emb`) and differ only in how they repeat it.
  The reference broadcasts `e` along a new vertex axis. The kernel's program merges channel and slot into 1536 lanes,
  lets a kernel copy each batch's one-row slab into 1024 rows — one grid point per batch, a load, a broadcast, a store —
  and splits the lanes again. Both are `Cert.SlotEmbedding.overVertices e` (Proof/VertexAxis.lean), so the results are
  equal entry by entry; no arithmetic law is involved and finiteness of the table is never used.

  The frames of the two kernel programs are the generated ones; the reference's frame is its run (Proof/ReferenceRun.lean)
  with the result forgotten; the idealization rewrote nothing, so it is preserved trivially.
-/
import proofs.«132990_j33981781246639_2_alg».proof.Defs
import proofs.«132990_j33981781246639_2_alg».proof.Proof.Gen.Kernel
import proofs.«132990_j33981781246639_2_alg».proof.Proof.Gen.Kernel.Frame
import proofs.«132990_j33981781246639_2_alg».proof.Proof.Gen.KernelIdeal
import proofs.«132990_j33981781246639_2_alg».proof.Proof.Gen.KernelIdeal.Frame
import proofs.«132990_j33981781246639_2_alg».proof.Proof.Gen.ReferenceIdeal
import proofs.«132990_j33981781246639_2_alg».proof.Proof.Gen.Pre_finite_inputs
import proofs.«132990_j33981781246639_2_alg».proof.Proof.KernelValue
import proofs.«132990_j33981781246639_2_alg».proof.Proof.ReferenceValue

noncomputable section

namespace Cert.Proof

open Idealize.ShloMosaic Idealize.SL.Sem

/-- Each kernel program runs and leaves its arguments as they were: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.RefValue.run (F := Ideal) m ρ)

/-- The idealized kernel program is the kernel program's own text: nothing was rewritten. -/
theorem preserves : Cert.preserves_Kernel_KernelIdeal := trivial

/-- From memories that agree on the arguments both programs end with the embedding of the arguments repeated over the
    vertices in their result buffers: the two runs state the same array. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
